-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x16 .f32) (main_arg3 : FVec F S16 .f32) (main_arg4 : FVec F S16x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1433 : Shape := ⟨2, ![2000, 1433]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S16x7, .f32⟩
  | .local _ .vmem, ⟨8, _⟩ => ⟨S10000x7, .f32⟩
  | .local _ .vmem, ⟨9, _⟩ => ⟨S10000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x16_S2000x16_1_0_0_1_n_n_wf : DotDims.WF S2000x1433 S1433x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x7.size a ≤ S100000x7.size a
  hwx1_2 : ∀ i : grid1.Coords, EltTy.bits .f32 = 32 ∨ (Rect.block (s := S100000x7) S10000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x7, .f32⟩
  | .hbm, ⟨98, _⟩ => ⟨S3300000x1, .f32⟩
  | .hbm, ⟨99, _⟩ => ⟨S3300000x7, .f32⟩
  | .hbm, ⟨100, _⟩ => ⟨S3300000x7, .f32⟩
  | .hbm, ⟨101, _⟩ => ⟨S_, .f32⟩
  | .hbm, ⟨102, _⟩ => ⟨S100000x7, .f32⟩
  | .hbm, ⟨103, _⟩ => ⟨S3300000x1, .i32⟩
  | .hbm, ⟨104, _⟩ => ⟨S100000x7, .f32⟩
  | .hbm, ⟨105, _⟩ => ⟨S1x7, .f32⟩
  | .hbm, ⟨106, _⟩ => ⟨S100000x7, .f32⟩
  | .hbm, ⟨107, _⟩ => ⟨S100000x7, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x7, .f32⟩
  | .hbm, ⟨115, _⟩ => ⟨S100000x7, .f32⟩
  | .hbm, ⟨116, _⟩ => ⟨S100000x7, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x7, .f32⟩
  | .hbm, ⟨122, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  dot_S100000x1433_S1433x16_S100000x16_1_0_0_1_n_n_wf : DotDims.WF S100000x1433 S1433x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.ResultRun.lean ====
/-
  The kernel program's run with its RESULT named.

  The program is nine segments: three stretches of host operations, the first matrix-product region, two stretches,
  the second region, two stretches.  The buffer contents at each boundary are a fold from the launch memory (the
  generated frame's `W0 … W9`): a stretch applies its operations, a region replaces its arrays by what its
  write-backs leave.  Every weakly fair execution terminates, nothing faulting, with every unscoped buffer at the
  last boundary's contents; in particular the result buffer holds `W9` at its own reference, and the six argument
  arrays are as launched.  This is the statement of the frame with one more buffer read off the same final state.
-/
import proofs.«153544_j36644660969781_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and the argument arrays as launched. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ResultRun

end
-- ==== Proof.Spec.lean ====
/-
  The mathematics both programs compute: a two-layer graph convolution with symmetric normalisation, then a row-wise
  logarithm of the softmax.

  From the edge list E (2 × 3,200,000 node numbers) the source and destination lists s, d are rows 0 and 1 of E, each
  with one self-loop per node appended (the numbers 0 … 99,999).  The degree of node n is the number of e with d(e) = n,
  obtained by accumulating ones into a zero vector; its inverse square root is kept where the degree is positive and
  replaced by zero elsewhere.  The weight of edge e is the product of that quantity at s(e) and at d(e) (an index is
  first brought into range by adding the number of nodes when it is negative).
  One layer, for a feature matrix h with one row per node: gather row s(e) of h for every edge, scale it by the edge's
  weight, accumulate the scaled rows into row d(e) of a zero matrix, and add the bias to every row.  The first layer is
  followed by the positive part; the second by the logarithm of the softmax of each row, written with the row maximum
  subtracted: (z - m) - log (sum over the row of exp (z - m)).
  The network's value is layer two of (positive part of layer one of X·W1)·W2, both matrix products plain.

  Everything here is a function of whole arrays, with no reference to either program's run.  The shapes and the
  dimension records are the ones the reference program prints.
-/
import proofs.«153544_j36644660969781_1_alg».proof.Proof.Gen.ReferenceIdeal

noncomputable section

namespace Cert.GraphConv

open Cert.ReferenceIdeal Cert.ReferenceIdeal.Gen Idealize.ShloMosaic

variable {F : FTy → Type} [FloatOps F]

/-- Edge lists with their self-loops: 3,300,000 node numbers. -/
abbrev Edges (F : FTy → Type) := (⟨S3300000, .i32⟩ : BufTy).Contents (Elt F)
/-- One number per edge. -/
abbrev PerEdge (F : FTy → Type) := (⟨S3300000, .f32⟩ : BufTy).Contents (Elt F)
/-- One number per node. -/
abbrev PerNode (F : FTy → Type) := (⟨S100000, .f32⟩ : BufTy).Contents (Elt F)

/-- Row 0 of the edge array followed by the node numbers: the source of every edge and self-loop. -/
def sources (E : (⟨S2x3200000, .i32⟩ : BufTy).Contents (Elt F)) : Edges F :=
  concatenate S3300000 0 [⟨S3200000, shapeCast _ (extractStridedSlice S1x3200000 ![0, 0] E slices_S2x3200000_S1x3200000_0_0) shapeCasts_S1x3200000_S3200000⟩, ⟨S100000, iotaInDim S100000 32 0⟩] concatenates_S3200000_S100000_S3300000_d0

/-- Row 1 of the edge array followed by the node numbers: the destination of every edge and self-loop. -/
def targets (E : (⟨S2x3200000, .i32⟩ : BufTy).Contents (Elt F)) : Edges F :=
  concatenate S3300000 0 [⟨S3200000, shapeCast _ (extractStridedSlice S1x3200000 ![1, 0] E slices_S2x3200000_S1x3200000_1_0) shapeCasts_S1x3200000_S3200000⟩, ⟨S100000, iotaInDim S100000 32 0⟩] concatenates_S3200000_S100000_S3300000_d0

/-- The number of edges arriving at each node: ones accumulated at the destinations. -/
def degree (d : Edges F) : PerNode F :=
  Host.scatterAdd scatter_S100000_S3300000x1_S3300000_n_0_0_1 (broadcastInDim S100000 ![] bcast_S_S100000 (constant S_ .f32 0x00000000#32))
    (broadcastInDim S3300000x1 ![0] bcast_S3300000_S3300000x1_0 d) (broadcastInDim S3300000 ![] bcast_S_S3300000 (constant S_ .f32 0x3F800000#32))

/-- The inverse square root of the degree where it is positive, zero elsewhere. -/
def invRootDegree (d : Edges F) : PerNode F :=
  select (cmpf (F := F) .ogt (degree d) (broadcastInDim S100000 ![] bcast_S_S100000 (constant S_ .f32 0x00000000#32))) (Host.rsqrt (degree d))
    (broadcastInDim S100000 ![] bcast_S_S100000 (id (constant S_ .f32 0x00000000#32)))

/-- A list of node numbers as a column of gather indices, a negative number first raised by the number of nodes. -/
def column (s : Edges F) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The weight of every edge: the per-node factor at its source times the factor at its destination. -/
def edgeWeight (s d : Edges F) (w : PerNode F) : PerEdge F :=
  mulf (Host.gather gather_S100000_S3300000x1_S3300000_n_0_n_n_0_1_1 w (column s)) (Host.gather gather_S100000_S3300000x1_S3300000_n_0_n_n_0_1_1 w (column d))

/-- The first layer after its matrix product: weighted rows of `h` summed into their destinations, plus the bias, positive part. -/
def hiddenLayer (s d : Edges F) (g : PerEdge F) (b : (⟨S16, .f32⟩ : BufTy).Contents (Elt F)) (h : (⟨S100000x16, .f32⟩ : BufTy).Contents (Elt F)) :
    (⟨S100000x16, .f32⟩ : BufTy).Contents (Elt F) :=
  maximumf
    (addf
      (Host.scatterAdd scatter_S100000x16_S3300000x1_S3300000x16_1_0_0_1 (broadcastInDim S100000x16 ![] bcast_S_S100000x16 (constant S_ .f32 0x00000000#32))
        (broadcastInDim S3300000x1 ![0] bcast_S3300000_S3300000x1_0 d)
        (mulf (Host.gather gather_S100000x16_S3300000x1_S3300000x16_1_0_n_n_0_1_116 h (column s))
          (broadcastInDim S3300000x16 ![0, 1] bcast_S3300000x1_S3300000x16_0_1 (broadcastInDim S3300000x1 ![0] bcast_S3300000_S3300000x1_0 g))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The second layer after its matrix product: weighted rows of `h` summed into their destinations, plus the bias. -/
def outputLayer (s d : Edges F) (g : PerEdge F) (b : (⟨S7, .f32⟩ : BufTy).Contents (Elt F)) (h : (⟨S100000x7, .f32⟩ : BufTy).Contents (Elt F)) :
    (⟨S100000x7, .f32⟩ : BufTy).Contents (Elt F) :=
  addf
    (Host.scatterAdd scatter_S100000x7_S3300000x1_S3300000x7_1_0_0_1 (broadcastInDim S100000x7 ![] bcast_S_S100000x7 (constant S_ .f32 0x00000000#32))
      (broadcastInDim S3300000x1 ![0] bcast_S3300000_S3300000x1_0 d)
      (mulf (Host.gather gather_S100000x7_S3300000x1_S3300000x7_1_0_n_n_0_1_17 h (column s))
        (broadcastInDim S3300000x7 ![0, 1] bcast_S3300000x1_S3300000x7_0_1 (broadcastInDim S3300000x1 ![0] bcast_S3300000_S3300000x1_0 g))))
    (broadcastInDim S100000x7 ![0, 1] bcast_S1x7_S100000x7_0_1 (broadcastInDim S1x7 ![1] bcast_S7_S1x7_1 b))

/-- Each row minus its maximum (the maximum taken once more against minus infinity). -/
def centred (z : (⟨S100000x7, .f32⟩ : BufTy).Contents (Elt F)) : (⟨S100000x7, .f32⟩ : BufTy).Contents (Elt F) :=
  subf z (broadcastInDim S100000x7 ![0, 1] bcast_S100000x1_S100000x7_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x7_S100000_d1 h_S_))))

/-- The logarithm of the softmax of each row: the centred row minus the logarithm of the sum of its exponentials. -/
def logSoftmaxRows (z : (⟨S100000x7, .f32⟩ : BufTy).Contents (Elt F)) : (⟨S100000x7, .f32⟩ : BufTy).Contents (Elt F) :=
  subf (centred z) (broadcastInDim S100000x7 ![0, 1] bcast_S100000x1_S100000x7_0_1 (Host.log (broadcastInDim S100000x1 ![0] bcast_S100000_S100000x1_0
    (Host.reduceAdd (Host.exp (centred z)) (constant S_ .f32 0x00000000#32) reducesTo_S100000x7_S100000_d1 h_S_))))

/-- The network's value from the six arguments: features X, edges E, first weights and bias, second weights and bias. -/
def network (X : (⟨S100000x1433, .f32⟩ : BufTy).Contents (Elt F)) (E : (⟨S2x3200000, .i32⟩ : BufTy).Contents (Elt F))
    (W1 : (⟨S1433x16, .f32⟩ : BufTy).Contents (Elt F)) (b1 : (⟨S16, .f32⟩ : BufTy).Contents (Elt F))
    (W2 : (⟨S16x7, .f32⟩ : BufTy).Contents (Elt F)) (b2 : (⟨S7, .f32⟩ : BufTy).Contents (Elt F)) : (⟨S100000x7, .f32⟩ : BufTy).Contents (Elt F) :=
  logSoftmaxRows (outputLayer (sources E) (targets E) (edgeWeight (sources E) (targets E) (invRootDegree (targets E))) b2
    (Host.dotGeneral dot_S100000x16_S16x7_S100000x7_1_0_0_1_n_n none
      (hiddenLayer (sources E) (targets E) (edgeWeight (sources E) (targets E) (invRootDegree (targets E))) b1
        (Host.dotGeneral dot_S100000x1433_S1433x16_S100000x16_1_0_0_1_n_n none X W1)) W2))

end Cert.GraphConv

end
-- ==== Proof.ResultsInside.lean ====
/-
  One tactic.  After the single rewriting pass over a stretch of host operations, an operation's result may still stand
  un-rewritten inside the list of pieces of a concatenation (the pass does not rewrite under that list, whose
  well-formedness proof depends on it).  `results_inside` finishes there: it rewrites each remaining operation's result
  at its own buffer to its function's value, and at any other buffer to what was there before, until none is left.
-/
import Idealize.ShloMosaic.Lib.StableHlo.Run

namespace Idealize.ShloMosaic.StableHlo

macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Idealize.ShloMosaic.StableHlo
-- ==== Proof.KernelStretches.lean ====
/-
  The kernel program's stretches of host operations, each read as a function of the buffers it finds.

  Between the launch and the first matrix-product region the program builds the edge lists with their self-loops, the
  inverse-root degree and the edge weights; between the two regions it gathers, weights and accumulates the first
  product's rows, adds the bias and takes the positive part; after the second region it does the same with the second
  product's rows and takes the logarithm of the softmax of each row.  For ANY contents `B` a stretch starts from, the
  buffer it computes holds the corresponding function of the specification applied to `B` at the buffers it reads, and
  every buffer a later stretch still reads is left as `B` has it.
-/
import proofs.«153544_j36644660969781_1_alg».proof.Proof.Gen.KernelIdeal.Launch
import proofs.«153544_j36644660969781_1_alg».proof.Proof.Spec
import proofs.«153544_j36644660969781_1_alg».proof.Proof.ResultsInside
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo
open Cert.GraphConv

variable {F : FTy → Type} [FloatOps F]
variable (B : Valuation τ sig (Elt F))

/-! ## Before the first region: the edge lists and the inverse-root degree -/

set_option maxHeartbeats 4000000 in
theorem lists_sources : after hostOps0_1 (after hostOps0 B) (Proc.devRef .tc main_v3) = sources (F := F) (B (Proc.devRef .tc main_arg1)) := by
  simp only [hostOps0, hostOps0_1]; after_results_simp; results_inside; rfl

set_option maxHeartbeats 4000000 in
theorem lists_targets : after hostOps0_1 (after hostOps0 B) (Proc.devRef .tc main_v6) = targets (F := F) (B (Proc.devRef .tc main_arg1)) := by
  simp only [hostOps0, hostOps0_1]; after_results_simp; results_inside; rfl

set_option maxHeartbeats 4000000 in
theorem lists_invRoot : after hostOps0_1 (after hostOps0 B) (Proc.devRef .tc main_v14) = invRootDegree (F := F) (targets (B (Proc.devRef .tc main_arg1))) := by
  simp only [hostOps0, hostOps0_1]; after_results_simp; results_inside; rfl

set_option maxHeartbeats 4000000 in
/-- The arguments are not written. -/
theorem lists_keep (b : Ref sig .tc) (hb : b ∈ [main_arg0, main_arg2, main_arg3, main_arg4, main_arg5]) :
    after hostOps0_1 (after hostOps0 B) (Proc.devRef .tc b) = B (Proc.devRef .tc b) := by
  simp only [List.mem_cons, List.not_mem_nil, or_false] at hb
  rcases hb with rfl | rfl | rfl | rfl | rfl <;> (simp only [hostOps0, hostOps0_1]; after_results_simp)

/-! ## The edge weights -/

set_option maxHeartbeats 4000000 in
theorem weights_value : after hostOps0_2 B (Proc.devRef .tc main_v29) = edgeWeight (F := F) (B (Proc.devRef .tc main_v3)) (B (Proc.devRef .tc main_v6)) (B (Proc.devRef .tc main_v14)) := by
  simp only [hostOps0_2]; after_results_simp; rfl

set_option maxHeartbeats 4000000 in
theorem weights_keep (b : Ref sig .tc) (hb : b ∈ [main_v3, main_v6, main_arg0, main_arg2, main_arg3, main_arg4, main_arg5]) :
    after hostOps0_2 B (Proc.devRef .tc b) = B (Proc.devRef .tc b) := by
  simp only [List.mem_cons, List.not_mem_nil, or_false] at hb
  rcases hb with rfl | rfl | rfl | rfl | rfl | rfl | rfl <;> (simp only [hostOps0_2]; after_results_simp)

/-! ## Between the regions: the first layer after its product -/

set_option maxHeartbeats 4000000 in
theorem hidden_value : after hostOps1_1 (after hostOps1 B) (Proc.devRef .tc main_v47)
    = hiddenLayer (F := F) (B (Proc.devRef .tc main_v3)) (B (Proc.devRef .tc main_v6)) (B (Proc.devRef .tc main_v29)) (B (Proc.devRef .tc main_arg3)) (B (Proc.devRef .tc main_v30)) := by
  simp only [hostOps1, hostOps1_1]; after_results_simp; rfl

set_option maxHeartbeats 4000000 in
theorem hidden_keep (b : Ref sig .tc) (hb : b ∈ [main_v3, main_v6, main_v29, main_arg4, main_arg5]) :
    after hostOps1_1 (after hostOps1 B) (Proc.devRef .tc b) = B (Proc.devRef .tc b) := by
  simp only [List.mem_cons, List.not_mem_nil, or_false] at hb
  rcases hb with rfl | rfl | rfl | rfl | rfl <;> (simp only [hostOps1, hostOps1_1]; after_results_simp)

/-! ## After the second region: the second layer after its product, and the row log-softmax -/

set_option maxHeartbeats 4000000 in
theorem output_value : after hostOps2_1 (after hostOps2 B) (Proc.devRef .tc main_v65)
    = logSoftmaxRows (F := F) (outputLayer (B (Proc.devRef .tc main_v3)) (B (Proc.devRef .tc main_v6)) (B (Proc.devRef .tc main_v29)) (B (Proc.devRef .tc main_arg5)) (B (Proc.devRef .tc main_v48))) := by
  simp only [hostOps2, hostOps2_1]; after_results_simp
  simp only [cast_cast, cast_eq]
  rfl

end Cert.KernelIdeal.Stretches

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.RegionArrays.lean ====
/-
  The two row-tiled matrix products of the kernel, read as whole arrays.

  Each region multiplies a tall left array, cut into blocks of consecutive rows, by a small right array that stays
  whole.  Block t of the output is the product of block t of the left array by the right array; its entry (p, q) is the
  sum over k of X(R·t + p, k) · W(k, q), where R is the number of rows in a block, and that is entry (R·t + p, q) of
  the product of the whole arrays.  Row r of the output lies in block r / R, so the blocks fill the output array and it
  ends holding the whole product.  On the extended reals the narrowing of the operands is the identity and every
  operation is exact, so nothing is lost block by block.
-/
import proofs.«153544_j36644660969781_1_alg».proof.Proof.Gen.KernelIdeal.Frame
import proofs.«153544_j36644660969781_1_alg».proof.Proof.LibSplit
import Idealize.ShloMosaic.Lib.Pipeline.Value
import Idealize.ShloMosaic.Lib.KernelVsHost
import Idealize.ShloMosaic.Lib.ValueIdx

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets, however they are spelt. -/
theorem zero_offsets : (![0, 0] : Fin 2 → Nat) = fun _ => 0 := funext fun a => by fin_cases a <;> rfl

/-! ## Region 0: [100000, 1433] by [1433, 16], in 50 blocks of 2000 rows -/

/-- On the extended reals the body's product into the zero splat, of the narrowed operands, is the plain product. -/
theorem product0 (x0 : FVec Ideal S2000x1433 .f32) (x1 : FVec Ideal S1433x16 .f32) :
    k0_pay1 (F := Ideal) x0 x1
      = Host.dotGeneral (F := Ideal) (φ₁ := .f32) (φ₂ := .f32) (DotDims.plain 2000 1433 16) none x0 x1 := by
  unfold k0_pay1
  exact matmul_zero_eq_dotGeneral (DotDims.plain 2000 1433 16) none x0 x1

/-- The block indices over the grid: the left block and the output block move together down the rows, one block per
    point; the right array is one block; no block moves along the columns. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the left block at point t is the entry of the left array 2000·t rows further down. -/
theorem left_block0 (c : Dev nD) (t : Fin cfg0.N) (x : S2000x1433.Idx) (i : S100000x1433.Idx)
    (h0 : (i 0).val = t.val * 2000 + (x 0).val) (h1 : (i 1).val = (x 1).val) :
    (iblk0 (F := Ideal) V c 0 t : FVec Ideal S2000x1433 .f32) x = (V c main_arg0 : FVec Ideal S100000x1433 .f32) i := by
  obtain ⟨e0, e1, -⟩ := block_indices0 t
  unfold iblk0
  rw [View.read_apply]
  show (V c main_arg0 : FVec Ideal S100000x1433 .f32) _ = _
  refine congrArg _ ?_
  funext a
  apply Fin.ext
  match a with
  | ⟨0, _⟩ => show win0_0.index t (0 : Fin 2) * 2000 + 1 * (x 0).val = (i 0).val; omega
  | ⟨1, _⟩ => show win0_0.index t (1 : Fin 2) * 1433 + 1 * (x 1).val = (i 1).val; omega

/-- The right block at every point is the whole right array. -/
theorem right_block0 (c : Dev nD) (t : Fin cfg0.N) (x : S1433x16.Idx) :
    (iblk0 (F := Ideal) V c 1 t : FVec Ideal S1433x16 .f32) x = (V c main_arg2 : FVec Ideal S1433x16 .f32) x := by
  obtain ⟨-, -, e2, e3, -⟩ := block_indices0 t
  unfold iblk0
  rw [View.read_apply]
  show (V c main_arg2 : FVec Ideal S1433x16 .f32) _ = _
  refine congrArg _ ?_
  funext a
  apply Fin.ext
  match a with
  | ⟨0, _⟩ => show win0_1.index t (0 : Fin 2) * 1433 + 1 * (x 0).val = (x 0).val; omega
  | ⟨1, _⟩ => show win0_1.index t (1 : Fin 2) * 16 + 1 * (x 1).val = (x 1).val; omega

/-- What point t writes back is block t of the product of the whole arrays. -/
theorem flushed0 (c : Dev nD) (t : Fin cfg0.N) :
    (dat0 (F := Ideal) V c).flushed 2 t = ((cfg0.win 2).blk t).view.read (Elt Ideal)
      (Host.dotGeneral (F := Ideal) (φ₁ := .f32) (φ₂ := .f32) (DotDims.plain 100000 1433 16) none (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x1433) zero_offsets, View.ld_unit_zero (S := S1433x16) zero_offsets]
  rw [product0]
  obtain ⟨-, -, -, -, e4, e5⟩ := block_indices0 t
  have hN : grid0.N = 50 := N_0
  have ht : t.val < 50 := hN ▸ t.isLt
  funext y
  obtain ⟨p, q, rfl⟩ : ∃ (p : Fin 2000) (q : Fin 16), y = ix2 p q := ⟨y 0, y 1, eq_ix2 y⟩
  have hrow : ((cfg0.win 2).blk t).view.emb (ix2 p q) = ix2 (⟨t.val * 2000 + p.val, by omega⟩ : Fin 100000) q := by
    funext a
    apply Fin.ext
    match a with
    | ⟨0, _⟩ => show win0_2.index t (0 : Fin 2) * 2000 + 1 * p.val = t.val * 2000 + p.val; omega
    | ⟨1, _⟩ => show win0_2.index t (1 : Fin 2) * 16 + 1 * q.val = q.val; omega
  show Host.dotGeneral (F := Ideal) (φ₁ := .f32) (φ₂ := .f32) (DotDims.plain 2000 1433 16) none
        (iblk0 V c 0 t) (iblk0 V c 1 t) (ix2 p q)
      = Host.dotGeneral (F := Ideal) (φ₁ := .f32) (φ₂ := .f32) (DotDims.plain 100000 1433 16) none
        (V c main_arg0) (V c main_arg2) (((cfg0.win 2).blk t).view.emb (ix2 p q))
  rw [hrow, Cert.Bridge.Split.dotGeneral_plain_apply _ rfl, Cert.Bridge.Split.dotGeneral_plain_apply _ rfl]
  refine Finset.sum_congr rfl fun k _ => ?_
  rw [left_block0 V c t (ix2 p k) (ix2 (⟨t.val * 2000 + p.val, by omega⟩ : Fin 100000) k) rfl rfl,
    right_block0 V c t (ix2 k q)]

/-- An index of the output array is in point t's block iff each coordinate is in the block's range on its axis. -/
theorem mem_block0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Row r of the output lies in block r / 2000: the 50 blocks fill the array. -/
theorem cover0 (i : S100000x16.Idx) :
    ∃ t : Fin cfg0.N, (cfg0.win 2).flush t = true ∧ i ∈ ((cfg0.win 2).blk t).view.set := by
  have hN : grid0.N = 50 := N_0
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, by show (i 0).val / 2000 < grid0.N; omega⟩, rfl⟩
  obtain ⟨-, -, -, -, e4, e5⟩ := block_indices0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-- The output array of region 0 ends holding the product of the whole arrays. -/
theorem array0 (c : Dev nD) : (dat0 (F := Ideal) V c).arrAt 2 cfg0.N
    = Host.dotGeneral (F := Ideal) (φ₁ := .f32) (φ₂ := .f32) (DotDims.plain 100000 1433 16) none
      (V c main_arg0) (V c main_arg2) :=
  (dat0 (F := Ideal) V c).arrAt_eq_of_cover 2 _ (fun t _ => flushed0 V c t) cover0

/-! ## Region 1: [100000, 16] by [16, 7], in 10 blocks of 10000 rows -/

/-- On the extended reals the body's product into the zero splat, of the narrowed operands (the left one first cast to
    its own shape), is the plain product. -/
theorem product1 (x0 : FVec Ideal S10000x16 .f32) (x1 : FVec Ideal S16x7 .f32) :
    k1_pay1 (F := Ideal) x0 x1
      = Host.dotGeneral (F := Ideal) (φ₁ := .f32) (φ₂ := .f32) (DotDims.plain 10000 16 7) none x0 x1 := by
  unfold k1_pay1
  rw [shapeCast_self]
  exact matmul_zero_eq_dotGeneral (DotDims.plain 10000 16 7) none x0 x1

/-- The block indices over the grid: the left block and the output block move together down the rows, one block per
    point; the right array is one block; no block moves along the columns. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the left block at point t is the entry of the left array 10000·t rows further down. -/
theorem left_block1 (c : Dev nD) (t : Fin cfg1.N) (x : S10000x16.Idx) (i : S100000x16.Idx)
    (h0 : (i 0).val = t.val * 10000 + (x 0).val) (h1 : (i 1).val = (x 1).val) :
    (iblk1 (F := Ideal) V c 0 t : FVec Ideal S10000x16 .f32) x = (V c main_v47 : FVec Ideal S100000x16 .f32) i := by
  obtain ⟨e0, e1, -⟩ := block_indices1 t
  unfold iblk1
  rw [View.read_apply]
  show (V c main_v47 : FVec Ideal S100000x16 .f32) _ = _
  refine congrArg _ ?_
  funext a
  apply Fin.ext
  match a with
  | ⟨0, _⟩ => show win1_0.index t (0 : Fin 2) * 10000 + 1 * (x 0).val = (i 0).val; omega
  | ⟨1, _⟩ => show win1_0.index t (1 : Fin 2) * 16 + 1 * (x 1).val = (i 1).val; omega

/-- The right block at every point is the whole right array. -/
theorem right_block1 (c : Dev nD) (t : Fin cfg1.N) (x : S16x7.Idx) :
    (iblk1 (F := Ideal) V c 1 t : FVec Ideal S16x7 .f32) x = (V c main_arg4 : FVec Ideal S16x7 .f32) x := by
  obtain ⟨-, -, e2, e3, -⟩ := block_indices1 t
  unfold iblk1
  rw [View.read_apply]
  show (V c main_arg4 : FVec Ideal S16x7 .f32) _ = _
  refine congrArg _ ?_
  funext a
  apply Fin.ext
  match a with
  | ⟨0, _⟩ => show win1_1.index t (0 : Fin 2) * 16 + 1 * (x 0).val = (x 0).val; omega
  | ⟨1, _⟩ => show win1_1.index t (1 : Fin 2) * 7 + 1 * (x 1).val = (x 1).val; omega

/-- What point t writes back is block t of the product of the whole arrays. -/
theorem flushed1 (c : Dev nD) (t : Fin cfg1.N) :
    (dat1 (F := Ideal) V c).flushed 2 t = ((cfg1.win 2).blk t).view.read (Elt Ideal)
      (Host.dotGeneral (F := Ideal) (φ₁ := .f32) (φ₂ := .f32) (DotDims.plain 100000 16 7) none (V c main_v47) (V c main_arg4)) := by
  show (cfg1.win 2).cut (grid1.coords t) ((dat1 V c).after 2 t) = _
  rw [after1_2]
  unfold out1_2
  rw [View.canon_unit_zero zero_offsets]
  simp only [View.ld_unit_zero (S := S10000x16) zero_offsets, View.ld_unit_zero (S := S16x7) zero_offsets]
  rw [product1]
  obtain ⟨-, -, -, -, e4, e5⟩ := block_indices1 t
  have hN : grid1.N = 10 := N_1
  have ht : t.val < 10 := hN ▸ t.isLt
  funext y
  obtain ⟨p, q, rfl⟩ : ∃ (p : Fin 10000) (q : Fin 7), y = ix2 p q := ⟨y 0, y 1, eq_ix2 y⟩
  have hrow : ((cfg1.win 2).blk t).view.emb (ix2 p q) = ix2 (⟨t.val * 10000 + p.val, by omega⟩ : Fin 100000) q := by
    funext a
    apply Fin.ext
    match a with
    | ⟨0, _⟩ => show win1_2.index t (0 : Fin 2) * 10000 + 1 * p.val = t.val * 10000 + p.val; omega
    | ⟨1, _⟩ => show win1_2.index t (1 : Fin 2) * 7 + 1 * q.val = q.val; omega
  show Host.dotGeneral (F := Ideal) (φ₁ := .f32) (φ₂ := .f32) (DotDims.plain 10000 16 7) none
        (iblk1 V c 0 t) (iblk1 V c 1 t) (ix2 p q)
      = Host.dotGeneral (F := Ideal) (φ₁ := .f32) (φ₂ := .f32) (DotDims.plain 100000 16 7) none
        (V c main_v47) (V c main_arg4) (((cfg1.win 2).blk t).view.emb (ix2 p q))
  rw [hrow, Cert.Bridge.Split.dotGeneral_plain_apply _ rfl, Cert.Bridge.Split.dotGeneral_plain_apply _ rfl]
  refine Finset.sum_congr rfl fun k _ => ?_
  rw [left_block1 V c t (ix2 p k) (ix2 (⟨t.val * 10000 + p.val, by omega⟩ : Fin 100000) k) rfl rfl,
    right_block1 V c t (ix2 k q)]

/-- An index of the output array is in point t's block iff each coordinate is in the block's range on its axis. -/
theorem mem_block1 (t : Fin cfg1.N) (i : S100000x7.Idx) :
    i ∈ ((cfg1.win 2).blk t).view.set ↔ ∀ a : Fin 2, win1_2.index t a * S10000x7.size a ≤ (i a).val
      ∧ (i a).val < win1_2.index t a * S10000x7.size a + S10000x7.size a := by
  show i ∈ ((View.whole main_v48).slice (win1_2.rect t)).set ↔ _
  rw [View.set_slice_whole, Rect.mem_set_unit]
  exact Iff.rfl

/-- Row r of the output lies in block r / 10000: the 10 blocks fill the array. -/
theorem cover1 (i : S100000x7.Idx) :
    ∃ t : Fin cfg1.N, (cfg1.win 2).flush t = true ∧ i ∈ ((cfg1.win 2).blk t).view.set := by
  have hN : grid1.N = 10 := N_1
  have hi0 : (i 0).val < 100000 := (i 0).isLt
  have hi1 : (i 1).val < 7 := (i 1).isLt
  obtain ⟨t, ht⟩ : ∃ t : Fin cfg1.N, t.val = (i 0).val / 10000 :=
    ⟨⟨(i 0).val / 10000, by show (i 0).val / 10000 < grid1.N; omega⟩, rfl⟩
  obtain ⟨-, -, -, -, e4, e5⟩ := block_indices1 t
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 7 ≤ (i 1).val ∧ (i 1).val < win1_2.index t (1 : Fin 2) * 7 + 7
    omega

/-- The output array of region 1 ends holding the product of the whole arrays. -/
theorem array1 (c : Dev nD) : (dat1 (F := Ideal) V c).arrAt 2 cfg1.N
    = Host.dotGeneral (F := Ideal) (φ₁ := .f32) (φ₂ := .f32) (DotDims.plain 100000 16 7) none
      (V c main_v47) (V c main_arg4) :=
  (dat1 (F := Ideal) V c).arrAt_eq_of_cover 2 _ (fun t _ => flushed1 V c t) cover1

end Cert.KernelIdeal.RegionArrays

end
-- ==== Proof.KernelValue.lean ====
/-
  The kernel program's value: what its result buffer holds at the last boundary is the network's value of the six
  arguments as launched.

  Walk the boundaries back from the end.  The last stretch computes the second layer with the row log-softmax from the
  edge lists, the edge weights, the second bias and the second region's output array, all as the region leaves them.
  The region leaves every buffer but its own arrays as it found it, and its output array holds the product of the first
  layer's value by the second weight array.  The stretch before the region computes the first layer from the same
  lists and weights, the first bias and the first region's output array, which holds the product of the feature array
  by the first weight array.  Before the first region the program computes the lists, the inverse-root degree and the
  weights from the edge argument.  No stretch and no region writes an argument.
-/
import proofs.«153544_j36644660969781_1_alg».proof.Proof.Gen.KernelIdeal.Frame
import proofs.«153544_j36644660969781_1_alg».proof.Proof.KernelStretches
import proofs.«153544_j36644660969781_1_alg».proof.Proof.RegionArrays
import proofs.«153544_j36644660969781_1_alg».proof.Proof.Spec

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Cert.GraphConv Cert.KernelIdeal.Stretches Cert.KernelIdeal.RegionArrays

variable (m : (ℓ : Loc nD τ sig) → Buf (Elt Ideal) ℓ) (ρ : Dev nD → PrngReg)

/-- The printed dimension records of the reference's two products are the plain contractions. -/
theorem plain1 : Cert.ReferenceIdeal.dot_S100000x1433_S1433x16_S100000x16_1_0_0_1_n_n = DotDims.plain 100000 1433 16 := rfl
theorem plain2 : Cert.ReferenceIdeal.dot_S100000x16_S16x7_S100000x7_1_0_0_1_n_n = DotDims.plain 100000 16 7 := rfl

set_option maxHeartbeats 4000000 in
theorem value (c : Dev nD) :
    W9 m ρ c (Proc.devRef .tc main_v65)
      = network (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  -- after the second region
  have e9 : W9 m ρ c (Proc.devRef .tc main_v65) = logSoftmaxRows (F := Ideal) (outputLayer (W7 m ρ c (Proc.devRef .tc main_v3)) (W7 m ρ c (Proc.devRef .tc main_v6)) (W7 m ρ c (Proc.devRef .tc main_v29))
      (W7 m ρ c (Proc.devRef .tc main_arg5)) (W7 m ρ c (Proc.devRef .tc main_v48))) := output_value (W7 m ρ c)
  -- across the second region
  have s3 : W7 m ρ c (Proc.devRef .tc main_v3) = W6 m ρ c (Proc.devRef .tc main_v3) := W7_of_ne m ρ c main_v3 (by decide)
  have s6 : W7 m ρ c (Proc.devRef .tc main_v6) = W6 m ρ c (Proc.devRef .tc main_v6) := W7_of_ne m ρ c main_v6 (by decide)
  have s29 : W7 m ρ c (Proc.devRef .tc main_v29) = W6 m ρ c (Proc.devRef .tc main_v29) := W7_of_ne m ρ c main_v29 (by decide)
  have sb : W7 m ρ c (Proc.devRef .tc main_arg5) = W6 m ρ c (Proc.devRef .tc main_arg5) := W7_of_ne m ρ c main_arg5 (by decide)
  have s48 : W7 m ρ c (Proc.devRef .tc main_v48) = Host.dotGeneral (F := Ideal) (φ₁ := .f32) (φ₂ := .f32) (DotDims.plain 100000 16 7) none
      (W6 m ρ c (Proc.devRef .tc main_v47)) (W6 m ρ c (Proc.devRef .tc main_arg4)) := (W7_arr m ρ c 2).trans (array1 (V6 m ρ) c)
  -- between the regions
  have h47 : W6 m ρ c (Proc.devRef .tc main_v47) = hiddenLayer (F := Ideal) (W4 m ρ c (Proc.devRef .tc main_v3)) (W4 m ρ c (Proc.devRef .tc main_v6)) (W4 m ρ c (Proc.devRef .tc main_v29))
      (W4 m ρ c (Proc.devRef .tc main_arg3)) (W4 m ρ c (Proc.devRef .tc main_v30)) := hidden_value (W4 m ρ c)
  have h3 : W6 m ρ c (Proc.devRef .tc main_v3) = W4 m ρ c (Proc.devRef .tc main_v3) := hidden_keep (W4 m ρ c) main_v3 (by simp)
  have h6 : W6 m ρ c (Proc.devRef .tc main_v6) = W4 m ρ c (Proc.devRef .tc main_v6) := hidden_keep (W4 m ρ c) main_v6 (by simp)
  have h29 : W6 m ρ c (Proc.devRef .tc main_v29) = W4 m ρ c (Proc.devRef .tc main_v29) := hidden_keep (W4 m ρ c) main_v29 (by simp)
  have ha4 : W6 m ρ c (Proc.devRef .tc main_arg4) = W4 m ρ c (Proc.devRef .tc main_arg4) := hidden_keep (W4 m ρ c) main_arg4 (by simp)
  have ha5 : W6 m ρ c (Proc.devRef .tc main_arg5) = W4 m ρ c (Proc.devRef .tc main_arg5) := hidden_keep (W4 m ρ c) main_arg5 (by simp)
  -- across the first region
  have f3 : W4 m ρ c (Proc.devRef .tc main_v3) = W3 m ρ c (Proc.devRef .tc main_v3) := W4_of_ne m ρ c main_v3 (by decide)
  have f6 : W4 m ρ c (Proc.devRef .tc main_v6) = W3 m ρ c (Proc.devRef .tc main_v6) := W4_of_ne m ρ c main_v6 (by decide)
  have f29 : W4 m ρ c (Proc.devRef .tc main_v29) = W3 m ρ c (Proc.devRef .tc main_v29) := W4_of_ne m ρ c main_v29 (by decide)
  have fa3 : W4 m ρ c (Proc.devRef .tc main_arg3) = W3 m ρ c (Proc.devRef .tc main_arg3) := W4_of_ne m ρ c main_arg3 (by decide)
  have fa4 : W4 m ρ c (Proc.devRef .tc main_arg4) = W3 m ρ c (Proc.devRef .tc main_arg4) := W4_of_ne m ρ c main_arg4 (by decide)
  have fa5 : W4 m ρ c (Proc.devRef .tc main_arg5) = W3 m ρ c (Proc.devRef .tc main_arg5) := W4_of_ne m ρ c main_arg5 (by decide)
  have f30 : W4 m ρ c (Proc.devRef .tc main_v30) = Host.dotGeneral (F := Ideal) (φ₁ := .f32) (φ₂ := .f32) (DotDims.plain 100000 1433 16) none
      (W3 m ρ c (Proc.devRef .tc main_arg0)) (W3 m ρ c (Proc.devRef .tc main_arg2)) := (W4_arr m ρ c 2).trans (array0 (V3 m ρ) c)
  -- the weights
  have w29 : W3 m ρ c (Proc.devRef .tc main_v29) = edgeWeight (F := Ideal) (W2 m ρ c (Proc.devRef .tc main_v3)) (W2 m ρ c (Proc.devRef .tc main_v6)) (W2 m ρ c (Proc.devRef .tc main_v14)) := weights_value (W2 m ρ c)
  have w3 : W3 m ρ c (Proc.devRef .tc main_v3) = W2 m ρ c (Proc.devRef .tc main_v3) := weights_keep (W2 m ρ c) main_v3 (by simp)
  have w6 : W3 m ρ c (Proc.devRef .tc main_v6) = W2 m ρ c (Proc.devRef .tc main_v6) := weights_keep (W2 m ρ c) main_v6 (by simp)
  have wa0 : W3 m ρ c (Proc.devRef .tc main_arg0) = W2 m ρ c (Proc.devRef .tc main_arg0) := weights_keep (W2 m ρ c) main_arg0 (by simp)
  have wa2 : W3 m ρ c (Proc.devRef .tc main_arg2) = W2 m ρ c (Proc.devRef .tc main_arg2) := weights_keep (W2 m ρ c) main_arg2 (by simp)
  have wa3 : W3 m ρ c (Proc.devRef .tc main_arg3) = W2 m ρ c (Proc.devRef .tc main_arg3) := weights_keep (W2 m ρ c) main_arg3 (by simp)
  have wa4 : W3 m ρ c (Proc.devRef .tc main_arg4) = W2 m ρ c (Proc.devRef .tc main_arg4) := weights_keep (W2 m ρ c) main_arg4 (by simp)
  have wa5 : W3 m ρ c (Proc.devRef .tc main_arg5) = W2 m ρ c (Proc.devRef .tc main_arg5) := weights_keep (W2 m ρ c) main_arg5 (by simp)
  -- the lists and the inverse-root degree
  have l3 : W2 m ρ c (Proc.devRef .tc main_v3) = sources (F := Ideal) (W0 m ρ c (Proc.devRef .tc main_arg1)) := lists_sources (W0 m ρ c)
  have l6 : W2 m ρ c (Proc.devRef .tc main_v6) = targets (F := Ideal) (W0 m ρ c (Proc.devRef .tc main_arg1)) := lists_targets (W0 m ρ c)
  have l14 : W2 m ρ c (Proc.devRef .tc main_v14) = invRootDegree (F := Ideal) (targets (W0 m ρ c (Proc.devRef .tc main_arg1))) := lists_invRoot (W0 m ρ c)
  have la0 : W2 m ρ c (Proc.devRef .tc main_arg0) = W0 m ρ c (Proc.devRef .tc main_arg0) := lists_keep (W0 m ρ c) main_arg0 (by simp)
  have la2 : W2 m ρ c (Proc.devRef .tc main_arg2) = W0 m ρ c (Proc.devRef .tc main_arg2) := lists_keep (W0 m ρ c) main_arg2 (by simp)
  have la3 : W2 m ρ c (Proc.devRef .tc main_arg3) = W0 m ρ c (Proc.devRef .tc main_arg3) := lists_keep (W0 m ρ c) main_arg3 (by simp)
  have la4 : W2 m ρ c (Proc.devRef .tc main_arg4) = W0 m ρ c (Proc.devRef .tc main_arg4) := lists_keep (W0 m ρ c) main_arg4 (by simp)
  have la5 : W2 m ρ c (Proc.devRef .tc main_arg5) = W0 m ρ c (Proc.devRef .tc main_arg5) := lists_keep (W0 m ρ c) main_arg5 (by simp)
  rw [e9, s3, s6, s29, sb, s48, h47, h3, h6, h29, ha4, ha5, f3, f6, f29, fa3, fa4, fa5, f30, w29, w3, w6, wa0, wa2, wa3, wa4, wa5,
    l3, l6, l14, la0, la2, la3, la4, la5]
  unfold network
  rw [plain1, plain2]

end Cert.KernelIdeal.KernelValue

end
-- ==== Proof.RefValue.lean ====
/-
  The reference program's value.

  Its 117 host operations run in order; what a buffer holds afterwards is the fold of their results over the launch
  contents.  The list is cut into seven consecutive runs — the edge lists and the inverse-root degree (21 operations),
  the first matrix product (1), the edge weights (19), the first layer after its product (22), the second matrix
  product (1), the edge weights once more (19), the second layer after its product with the row log-softmax (34) — and
  the fold over the whole list is the folds over the runs, one started from the other.  Each run, from ANY contents,
  leaves in the buffer it computes the corresponding function of the specification, and leaves alone every buffer a
  later run still reads.  Chained from the launch contents this gives the network's value at the result buffer.
  The weights are computed twice by the program, from the same lists and the same per-node factor: the same value.
-/
import proofs.«153544_j36644660969781_1_alg».proof.Proof.RefRunP
import proofs.«153544_j36644660969781_1_alg».proof.Proof.Spec
import proofs.«153544_j36644660969781_1_alg».proof.Proof.ResultsInside
import Idealize.ShloMosaic.Lib.Pipeline.Frame

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Cert.GraphConv

variable {F : FTy → Type} [FloatOps F]

/-! ## The seven runs -/

abbrev runLists : List (HloOp τ sig (Elt F)) := (ops (F := F)).take 21
abbrev runProduct1 : List (HloOp τ sig (Elt F)) := ((ops (F := F)).drop 21).take 1
abbrev runWeights1 : List (HloOp τ sig (Elt F)) := ((ops (F := F)).drop 22).take 19
abbrev runHidden : List (HloOp τ sig (Elt F)) := ((ops (F := F)).drop 41).take 22
abbrev runProduct2 : List (HloOp τ sig (Elt F)) := ((ops (F := F)).drop 63).take 1
abbrev runWeights2 : List (HloOp τ sig (Elt F)) := ((ops (F := F)).drop 64).take 19
abbrev runOutput : List (HloOp τ sig (Elt F)) := (ops (F := F)).drop 83

/-- The operations are the seven runs one after the other. -/
theorem ops_runs : (ops (F := F)) = runLists ++ (runProduct1 ++ (runWeights1 ++ (runHidden ++ (runProduct2 ++ (runWeights2 ++ runOutput))))) := by
  simp only [runLists, runProduct1, runWeights1, runHidden, runProduct2, runWeights2, runOutput, ops, List.take_succ_cons, List.take_zero, List.drop_succ_cons, List.drop_zero,
    List.cons_append, List.nil_append]

variable (B : Valuation τ sig (Elt F))

/-! ## Each run from any contents -/

set_option maxHeartbeats 4000000 in
theorem lists_sources : after (runLists (F := F)) B (Proc.devRef .tc main_v3) = sources (F := F) (B (Proc.devRef .tc main_arg1)) := by
  simp only [runLists, ops, List.take_succ_cons, List.take_zero, List.drop_succ_cons, List.drop_zero]; after_results_simp; results_inside; rfl
set_option maxHeartbeats 4000000 in
theorem lists_targets : after (runLists (F := F)) B (Proc.devRef .tc main_v6) = targets (F := F) (B (Proc.devRef .tc main_arg1)) := by
  simp only [runLists, ops, List.take_succ_cons, List.take_zero, List.drop_succ_cons, List.drop_zero]; after_results_simp; results_inside; rfl
set_option maxHeartbeats 4000000 in
theorem lists_invRoot : after (runLists (F := F)) B (Proc.devRef .tc main_v14) = invRootDegree (F := F) (targets (B (Proc.devRef .tc main_arg1))) := by
  simp only [runLists, ops, List.take_succ_cons, List.take_zero, List.drop_succ_cons, List.drop_zero]; after_results_simp; results_inside; rfl
set_option maxHeartbeats 4000000 in
theorem lists_keep (b : Ref sig .tc) (hb : b ∈ [main_arg0, main_arg2, main_arg3, main_arg4, main_arg5]) :
    after (runLists (F := F)) B (Proc.devRef .tc b) = B (Proc.devRef .tc b) := by
  simp only [List.mem_cons, List.not_mem_nil, or_false] at hb
  rcases hb with rfl | rfl | rfl | rfl | rfl <;> (simp only [runLists, ops, List.take_succ_cons, List.take_zero, List.drop_succ_cons, List.drop_zero]; after_results_simp)

set_option maxHeartbeats 4000000 in
theorem product1_value : after (runProduct1 (F := F)) B (Proc.devRef .tc main_v15)
    = Host.dotGeneral dot_S100000x1433_S1433x16_S100000x16_1_0_0_1_n_n none (B (Proc.devRef .tc main_arg0)) (B (Proc.devRef .tc main_arg2)) := by
  simp only [runProduct1, ops, List.take_succ_cons, List.take_zero, List.drop_succ_cons, List.drop_zero]; after_results_simp
set_option maxHeartbeats 4000000 in
theorem product1_keep (b : Ref sig .tc) (hb : b ∈ [main_v3, main_v6, main_v14, main_arg3, main_arg4, main_arg5]) :
    after (runProduct1 (F := F)) B (Proc.devRef .tc b) = B (Proc.devRef .tc b) := by
  simp only [List.mem_cons, List.not_mem_nil, or_false] at hb
  rcases hb with rfl | rfl | rfl | rfl | rfl | rfl <;> (simp only [runProduct1, ops, List.take_succ_cons, List.take_zero, List.drop_succ_cons, List.drop_zero]; after_results_simp)

set_option maxHeartbeats 4000000 in
theorem weights1_value : after (runWeights1 (F := F)) B (Proc.devRef .tc main_v30) = edgeWeight (F := F) (B (Proc.devRef .tc main_v3)) (B (Proc.devRef .tc main_v6)) (B (Proc.devRef .tc main_v14)) := by
  simp only [runWeights1, ops, List.take_succ_cons, List.take_zero, List.drop_succ_cons, List.drop_zero]; after_results_simp; rfl
set_option maxHeartbeats 4000000 in
theorem weights1_keep (b : Ref sig .tc) (hb : b ∈ [main_v3, main_v6, main_v14, main_v15, main_arg3, main_arg4, main_arg5]) :
    after (runWeights1 (F := F)) B (Proc.devRef .tc b) = B (Proc.devRef .tc b) := by
  simp only [List.mem_cons, List.not_mem_nil, or_false] at hb
  rcases hb with rfl | rfl | rfl | rfl | rfl | rfl | rfl <;> (simp only [runWeights1, ops, List.take_succ_cons, List.take_zero, List.drop_succ_cons, List.drop_zero]; after_results_simp)

set_option maxHeartbeats 4000000 in
theorem hidden_value : after (runHidden (F := F)) B (Proc.devRef .tc main_v47)
    = hiddenLayer (F := F) (B (Proc.devRef .tc main_v3)) (B (Proc.devRef .tc main_v6)) (B (Proc.devRef .tc main_v30)) (B (Proc.devRef .tc main_arg3)) (B (Proc.devRef .tc main_v15)) := by
  simp only [runHidden, ops, List.take_succ_cons, List.take_zero, List.drop_succ_cons, List.drop_zero]; after_results_simp; rfl
set_option maxHeartbeats 4000000 in
theorem hidden_keep (b : Ref sig .tc) (hb : b ∈ [main_v3, main_v6, main_v14, main_arg4, main_arg5]) :
    after (runHidden (F := F)) B (Proc.devRef .tc b) = B (Proc.devRef .tc b) := by
  simp only [List.mem_cons, List.not_mem_nil, or_false] at hb
  rcases hb with rfl | rfl | rfl | rfl | rfl <;> (simp only [runHidden, ops, List.take_succ_cons, List.take_zero, List.drop_succ_cons, List.drop_zero]; after_results_simp)

set_option maxHeartbeats 4000000 in
theorem product2_value : after (runProduct2 (F := F)) B (Proc.devRef .tc main_v48)
    = Host.dotGeneral dot_S100000x16_S16x7_S100000x7_1_0_0_1_n_n none (B (Proc.devRef .tc main_v47)) (B (Proc.devRef .tc main_arg4)) := by
  simp only [runProduct2, ops, List.take_succ_cons, List.take_zero, List.drop_succ_cons, List.drop_zero]; after_results_simp
set_option maxHeartbeats 4000000 in
theorem product2_keep (b : Ref sig .tc) (hb : b ∈ [main_v3, main_v6, main_v14, main_arg5]) :
    after (runProduct2 (F := F)) B (Proc.devRef .tc b) = B (Proc.devRef .tc b) := by
  simp only [List.mem_cons, List.not_mem_nil, or_false] at hb
  rcases hb with rfl | rfl | rfl | rfl <;> (simp only [runProduct2, ops, List.take_succ_cons, List.take_zero, List.drop_succ_cons, List.drop_zero]; after_results_simp)

set_option maxHeartbeats 4000000 in
theorem weights2_value : after (runWeights2 (F := F)) B (Proc.devRef .tc main_v63) = edgeWeight (F := F) (B (Proc.devRef .tc main_v3)) (B (Proc.devRef .tc main_v6)) (B (Proc.devRef .tc main_v14)) := by
  simp only [runWeights2, ops, List.take_succ_cons, List.take_zero, List.drop_succ_cons, List.drop_zero]; after_results_simp; rfl
set_option maxHeartbeats 4000000 in
theorem weights2_keep (b : Ref sig .tc) (hb : b ∈ [main_v3, main_v6, main_v48, main_arg5]) :
    after (runWeights2 (F := F)) B (Proc.devRef .tc b) = B (Proc.devRef .tc b) := by
  simp only [List.mem_cons, List.not_mem_nil, or_false] at hb
  rcases hb with rfl | rfl | rfl | rfl <;> (simp only [runWeights2, ops, List.take_succ_cons, List.take_zero, List.drop_succ_cons, List.drop_zero]; after_results_simp)

set_option maxHeartbeats 4000000 in
theorem output_value : after (runOutput (F := F)) B (Proc.devRef .tc main_v80)
    = logSoftmaxRows (F := F) (outputLayer (B (Proc.devRef .tc main_v3)) (B (Proc.devRef .tc main_v6)) (B (Proc.devRef .tc main_v63)) (B (Proc.devRef .tc main_arg5)) (B (Proc.devRef .tc main_v48))) := by
  simp only [runOutput, ops, List.take_succ_cons, List.take_zero, List.drop_succ_cons, List.drop_zero]; after_results_simp
  simp only [cast_cast, cast_eq]
  rfl

end Cert.ReferenceIdeal.RefValue

end
-- ==== Proof.RefChain.lean ====
/-
  The reference program's value at its result buffer is the network's value of the launch contents of its six
  arguments: the seven runs chained.  Reading back from the end, the last run wants the lists, the second weights, the
  second bias and the second product; the runs before it leave the lists and the per-node factor alone, so the second
  weights are the first ones; the second product is of the first layer's value, which wants the first weights, the first
  bias and the first product; and the lists, the factor and every argument are as the first run leaves them.
-/
import proofs.«153544_j36644660969781_1_alg».proof.Proof.RefValue

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Cert.GraphConv

variable {F : FTy → Type} [FloatOps F]

set_option maxHeartbeats 4000000 in
theorem value (L : Valuation τ sig (Elt F)) :
    after (ops (F := F)) L (Proc.devRef .tc main_v80)
      = network (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) := by
  rw [ops_runs]
  simp only [StableHlo.after_append]
  -- the contents at the six inner boundaries
  obtain ⟨B1, hB1⟩ : ∃ B1, B1 = after (runLists (F := F)) L := ⟨_, rfl⟩
  obtain ⟨B2, hB2⟩ : ∃ B2, B2 = after (runProduct1 (F := F)) B1 := ⟨_, rfl⟩
  obtain ⟨B3, hB3⟩ : ∃ B3, B3 = after (runWeights1 (F := F)) B2 := ⟨_, rfl⟩
  obtain ⟨B4, hB4⟩ : ∃ B4, B4 = after (runHidden (F := F)) B3 := ⟨_, rfl⟩
  obtain ⟨B5, hB5⟩ : ∃ B5, B5 = after (runProduct2 (F := F)) B4 := ⟨_, rfl⟩
  obtain ⟨B6, hB6⟩ : ∃ B6, B6 = after (runWeights2 (F := F)) B5 := ⟨_, rfl⟩
  rw [← hB1, ← hB2, ← hB3, ← hB4, ← hB5, ← hB6, output_value B6]
  -- the second weights
  have g63 : B6 (Proc.devRef .tc main_v63) = edgeWeight (F := F) (B5 (Proc.devRef .tc main_v3)) (B5 (Proc.devRef .tc main_v6)) (B5 (Proc.devRef .tc main_v14)) := by rw [hB6]; exact weights2_value B5
  have g3 : B6 (Proc.devRef .tc main_v3) = B5 (Proc.devRef .tc main_v3) := by rw [hB6]; exact weights2_keep B5 main_v3 (by simp)
  have g6 : B6 (Proc.devRef .tc main_v6) = B5 (Proc.devRef .tc main_v6) := by rw [hB6]; exact weights2_keep B5 main_v6 (by simp)
  have g48 : B6 (Proc.devRef .tc main_v48) = B5 (Proc.devRef .tc main_v48) := by rw [hB6]; exact weights2_keep B5 main_v48 (by simp)
  have ga5 : B6 (Proc.devRef .tc main_arg5) = B5 (Proc.devRef .tc main_arg5) := by rw [hB6]; exact weights2_keep B5 main_arg5 (by simp)
  -- the second product
  have p48 : B5 (Proc.devRef .tc main_v48) = Host.dotGeneral dot_S100000x16_S16x7_S100000x7_1_0_0_1_n_n none (B4 (Proc.devRef .tc main_v47)) (B4 (Proc.devRef .tc main_arg4)) := by rw [hB5]; exact product2_value B4
  have p3 : B5 (Proc.devRef .tc main_v3) = B4 (Proc.devRef .tc main_v3) := by rw [hB5]; exact product2_keep B4 main_v3 (by simp)
  have p6 : B5 (Proc.devRef .tc main_v6) = B4 (Proc.devRef .tc main_v6) := by rw [hB5]; exact product2_keep B4 main_v6 (by simp)
  have p14 : B5 (Proc.devRef .tc main_v14) = B4 (Proc.devRef .tc main_v14) := by rw [hB5]; exact product2_keep B4 main_v14 (by simp)
  have pa5 : B5 (Proc.devRef .tc main_arg5) = B4 (Proc.devRef .tc main_arg5) := by rw [hB5]; exact product2_keep B4 main_arg5 (by simp)
  -- the first layer
  have h47 : B4 (Proc.devRef .tc main_v47) = hiddenLayer (F := F) (B3 (Proc.devRef .tc main_v3)) (B3 (Proc.devRef .tc main_v6)) (B3 (Proc.devRef .tc main_v30)) (B3 (Proc.devRef .tc main_arg3)) (B3 (Proc.devRef .tc main_v15)) := by rw [hB4]; exact hidden_value B3
  have h3 : B4 (Proc.devRef .tc main_v3) = B3 (Proc.devRef .tc main_v3) := by rw [hB4]; exact hidden_keep B3 main_v3 (by simp)
  have h6 : B4 (Proc.devRef .tc main_v6) = B3 (Proc.devRef .tc main_v6) := by rw [hB4]; exact hidden_keep B3 main_v6 (by simp)
  have h14 : B4 (Proc.devRef .tc main_v14) = B3 (Proc.devRef .tc main_v14) := by rw [hB4]; exact hidden_keep B3 main_v14 (by simp)
  have ha4 : B4 (Proc.devRef .tc main_arg4) = B3 (Proc.devRef .tc main_arg4) := by rw [hB4]; exact hidden_keep B3 main_arg4 (by simp)
  have ha5 : B4 (Proc.devRef .tc main_arg5) = B3 (Proc.devRef .tc main_arg5) := by rw [hB4]; exact hidden_keep B3 main_arg5 (by simp)
  -- the first weights
  have w30 : B3 (Proc.devRef .tc main_v30) = edgeWeight (F := F) (B2 (Proc.devRef .tc main_v3)) (B2 (Proc.devRef .tc main_v6)) (B2 (Proc.devRef .tc main_v14)) := by rw [hB3]; exact weights1_value B2
  have w3 : B3 (Proc.devRef .tc main_v3) = B2 (Proc.devRef .tc main_v3) := by rw [hB3]; exact weights1_keep B2 main_v3 (by simp)
  have w6 : B3 (Proc.devRef .tc main_v6) = B2 (Proc.devRef .tc main_v6) := by rw [hB3]; exact weights1_keep B2 main_v6 (by simp)
  have w14 : B3 (Proc.devRef .tc main_v14) = B2 (Proc.devRef .tc main_v14) := by rw [hB3]; exact weights1_keep B2 main_v14 (by simp)
  have w15 : B3 (Proc.devRef .tc main_v15) = B2 (Proc.devRef .tc main_v15) := by rw [hB3]; exact weights1_keep B2 main_v15 (by simp)
  have wa3 : B3 (Proc.devRef .tc main_arg3) = B2 (Proc.devRef .tc main_arg3) := by rw [hB3]; exact weights1_keep B2 main_arg3 (by simp)
  have wa4 : B3 (Proc.devRef .tc main_arg4) = B2 (Proc.devRef .tc main_arg4) := by rw [hB3]; exact weights1_keep B2 main_arg4 (by simp)
  have wa5 : B3 (Proc.devRef .tc main_arg5) = B2 (Proc.devRef .tc main_arg5) := by rw [hB3]; exact weights1_keep B2 main_arg5 (by simp)
  -- the first product
  have q15 : B2 (Proc.devRef .tc main_v15) = Host.dotGeneral dot_S100000x1433_S1433x16_S100000x16_1_0_0_1_n_n none (B1 (Proc.devRef .tc main_arg0)) (B1 (Proc.devRef .tc main_arg2)) := by rw [hB2]; exact product1_value B1
  have q3 : B2 (Proc.devRef .tc main_v3) = B1 (Proc.devRef .tc main_v3) := by rw [hB2]; exact product1_keep B1 main_v3 (by simp)
  have q6 : B2 (Proc.devRef .tc main_v6) = B1 (Proc.devRef .tc main_v6) := by rw [hB2]; exact product1_keep B1 main_v6 (by simp)
  have q14 : B2 (Proc.devRef .tc main_v14) = B1 (Proc.devRef .tc main_v14) := by rw [hB2]; exact product1_keep B1 main_v14 (by simp)
  have qa3 : B2 (Proc.devRef .tc main_arg3) = B1 (Proc.devRef .tc main_arg3) := by rw [hB2]; exact product1_keep B1 main_arg3 (by simp)
  have qa4 : B2 (Proc.devRef .tc main_arg4) = B1 (Proc.devRef .tc main_arg4) := by rw [hB2]; exact product1_keep B1 main_arg4 (by simp)
  have qa5 : B2 (Proc.devRef .tc main_arg5) = B1 (Proc.devRef .tc main_arg5) := by rw [hB2]; exact product1_keep B1 main_arg5 (by simp)
  -- the lists and the inverse-root degree
  have l3 : B1 (Proc.devRef .tc main_v3) = sources (F := F) (L (Proc.devRef .tc main_arg1)) := by rw [hB1]; exact lists_sources L
  have l6 : B1 (Proc.devRef .tc main_v6) = targets (F := F) (L (Proc.devRef .tc main_arg1)) := by rw [hB1]; exact lists_targets L
  have l14 : B1 (Proc.devRef .tc main_v14) = invRootDegree (F := F) (targets (L (Proc.devRef .tc main_arg1))) := by rw [hB1]; exact lists_invRoot L
  have la0 : B1 (Proc.devRef .tc main_arg0) = L (Proc.devRef .tc main_arg0) := by rw [hB1]; exact lists_keep L main_arg0 (by simp)
  have la2 : B1 (Proc.devRef .tc main_arg2) = L (Proc.devRef .tc main_arg2) := by rw [hB1]; exact lists_keep L main_arg2 (by simp)
  have la3 : B1 (Proc.devRef .tc main_arg3) = L (Proc.devRef .tc main_arg3) := by rw [hB1]; exact lists_keep L main_arg3 (by simp)
  have la4 : B1 (Proc.devRef .tc main_arg4) = L (Proc.devRef .tc main_arg4) := by rw [hB1]; exact lists_keep L main_arg4 (by simp)
  have la5 : B1 (Proc.devRef .tc main_arg5) = L (Proc.devRef .tc main_arg5) := by rw [hB1]; exact lists_keep L main_arg5 (by simp)
  rw [g63, g3, g6, g48, ga5, p48, p3, p6, p14, pa5, h47, h3, h6, h14, ha4, ha5, w30, w3, w6, w14, w15, wa3, wa4, wa5,
    q15, q3, q6, q14, qa3, qa4, qa5, l3, l6, l14, la0, la2, la3, la4, la5]
  rfl

set_option maxHeartbeats 4000000 in
/-- No operation writes an argument: after all of them each argument buffer holds what it was launched with. -/
theorem args_kept (L : Valuation τ sig (Elt F)) (b : Ref sig .tc) (hb : b ∈ [main_arg0, main_arg1, main_arg2, main_arg3, main_arg4, main_arg5]) :
    after (ops (F := F)) L (Proc.devRef .tc b) = L (Proc.devRef .tc b) := by
  simp only [List.mem_cons, List.not_mem_nil, or_false] at hb
  rcases hb with rfl | rfl | rfl | rfl | rfl | rfl <;> (simp only [ops]; after_results_simp)

end Cert.ReferenceIdeal.RefValue

end
-- ==== Proof.lean ====
/-
  Two programs for one network.  The kernel program computes a two-layer graph convolution with its two matrix
  products as row-tiled kernels (50 blocks of 2000 rows; 10 blocks of 10000 rows), the operands narrowed on the way
  in; the reference computes the same network with the two products as plain contractions.  Everything else — the
  edge lists with their self-loops, the degrees and their inverse roots, the edge weights, the gathers, the weighted
  accumulations, the biases, the positive part, the row log-softmax — is the same sequence of operations in both.

  On the extended reals narrowing is the identity and a product accumulated into zero is the plain product, so each
  kernel region leaves in its output array the product of the whole arrays (the blocks fill the array, row r in block
  r / 2000, resp. r / 10000), and both programs end with the value `Cert.GraphConv.network` of their arguments.  No
  law beyond reading each matrix product as its sum over the contracted index is used, so the inputs' finiteness is
  never opened.  The frames are the generated ones; the reference's is its run with the result dropped.  The ideal
  pass rewrote nothing, so there is nothing to preserve.
-/
import proofs.«153544_j36644660969781_1_alg».proof.Defs
import proofs.«153544_j36644660969781_1_alg».proof.Proof.Gen.Kernel
import proofs.«153544_j36644660969781_1_alg».proof.Proof.Gen.Kernel.Skeleton
import proofs.«153544_j36644660969781_1_alg».proof.Proof.Gen.Kernel.Launch
import proofs.«153544_j36644660969781_1_alg».proof.Proof.Gen.Kernel.Points
import proofs.«153544_j36644660969781_1_alg».proof.Proof.Gen.Kernel.Frame
import proofs.«153544_j36644660969781_1_alg».proof.Proof.Gen.KernelIdeal
import proofs.«153544_j36644660969781_1_alg».proof.Proof.Gen.KernelIdeal.Skeleton
import proofs.«153544_j36644660969781_1_alg».proof.Proof.Gen.KernelIdeal.Launch
import proofs.«153544_j36644660969781_1_alg».proof.Proof.Gen.KernelIdeal.Points
import proofs.«153544_j36644660969781_1_alg».proof.Proof.Gen.KernelIdeal.Frame
import proofs.«153544_j36644660969781_1_alg».proof.Proof.Gen.ReferenceIdeal
import proofs.«153544_j36644660969781_1_alg».proof.Proof.Gen.Pre_finite_inputs
import proofs.«153544_j36644660969781_1_alg».proof.Proof.ResultRun
import proofs.«153544_j36644660969781_1_alg».proof.Proof.KernelValue
import proofs.«153544_j36644660969781_1_alg».proof.Proof.RefRunP
import proofs.«153544_j36644660969781_1_alg».proof.Proof.RefChain
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program's run with its result at the network's value of the launched arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v65)
        = Cert.GraphConv.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c => ⟨(h c).1.trans (Cert.KernelIdeal.KernelValue.value m ρ c), (h c).2⟩)
    (Cert.KernelIdeal.ResultRun.run (F := Ideal) m ρ)

open Cert.ReferenceIdeal in
/-- The reference program's run with its result at the network's value of the launched arguments. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v80)
        = Cert.GraphConv.network (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.ReferenceIdeal.defs _ _).mono (fun r h c =>
      ⟨(h c main_v80).trans (Cert.ReferenceIdeal.RefValue.value (launchContents m c)),
       (h c main_arg0).trans (Cert.ReferenceIdeal.RefValue.args_kept (launchContents m c) main_arg0 (by simp)),
       (h c main_arg1).trans (Cert.ReferenceIdeal.RefValue.args_kept (launchContents m c) main_arg1 (by simp)),
       (h c main_arg2).trans (Cert.ReferenceIdeal.RefValue.args_kept (launchContents m c) main_arg2 (by simp)),
       (h c main_arg3).trans (Cert.ReferenceIdeal.RefValue.args_kept (launchContents m c) main_arg3 (by simp)),
       (h c main_arg4).trans (Cert.ReferenceIdeal.RefValue.args_kept (launchContents m c) main_arg4 (by simp)),
       (h c main_arg5).trans (Cert.ReferenceIdeal.RefValue.args_kept (launchContents m c) main_arg5 (by simp))⟩)
    (Cert.ReferenceIdeal.ValueP.run_fold (F := Ideal) m ρ)

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (reference_run m ρ)

/-- The ideal pass rewrote no operation. -/
theorem preserves : Cert.preserves_Kernel_KernelIdeal := trivial

/-- From memories agreeing on the arguments both programs end with the network's value of those arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩) (reference_run m' ρ')
  obtain ⟨a0, a1, a2, a3, a4, a5⟩ := hagree c
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
